-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S1600000 32) (main_arg2 : IVec S1600000 32) (main_arg3 : FVec F S1600000 .f32) (main_arg4 : FVec F S512x128 .f32) (main_arg5 : FVec F S128 .f32) (main_arg6 : FVec F S128x40 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S100000x40 : Shape := ⟨2, ![100000, 40]⟩
abbrev S1600000x40 : Shape := ⟨2, ![1600000, 40]⟩
abbrev S2000x512 : Shape := ⟨2, ![2000, 512]⟩
abbrev S2000x128 : Shape := ⟨2, ![2000, 128]⟩
abbrev S5000x128 : Shape := ⟨2, ![5000, 128]⟩
abbrev S5000x40 : Shape := ⟨2, ![5000, 40]⟩
abbrev S1x128 : Shape := ⟨2, ![1, 128]⟩
abbrev S2000x40 : Shape := ⟨2, ![2000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 45
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S512x128, .bf16⟩
  | .hbm, ⟨9, _⟩ => ⟨S128x40, .bf16⟩
  | .hbm, ⟨10, _⟩ => ⟨S100000x128, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x40, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x40, .f32⟩
  | .hbm, ⟨38, _⟩ => ⟨S1600000x40, .f32⟩
  | .hbm, ⟨39, _⟩ => ⟨S1600000x40, .f32⟩
  | .hbm, ⟨40, _⟩ => ⟨S_, .f32⟩
  | .hbm, ⟨41, _⟩ => ⟨S100000x40, .f32⟩
  | .hbm, ⟨42, _⟩ => ⟨S1600000x1, .i32⟩
  | .hbm, ⟨43, _⟩ => ⟨S100000x40, .f32⟩
  | .hbm, ⟨44, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x128, .bf16⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x40, .bf16⟩
  | .local _ .vmem, ⟨9, _⟩ => ⟨S5000x40, .f32⟩
  | .local _ .vmem, ⟨10, _⟩ => ⟨S5000x40, .f32⟩
  | .local _ .vmem, ⟨11, _⟩ => ⟨S2000x40, .f32⟩
  | .local _ .vmem, ⟨12, _⟩ => ⟨S2000x40, .f32⟩
  | .local _ .vmem, ⟨13, _⟩ => ⟨S40, .f32⟩
  | .local _ .vmem, ⟨14, _⟩ => ⟨S2000x40, .f32⟩
  | .local _ .vmem, ⟨15, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_c : Ref sig .tc := ⟨.hbm, 12, rfl⟩
abbrev main_call0_v4 : Ref sig .tc := ⟨.hbm, 13, rfl⟩
abbrev main_call0_v5 : Ref sig .tc := ⟨.hbm, 14, rfl⟩
abbrev main_call0_c_0 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_cst : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_c_1 : Ref sig .tc := ⟨.hbm, 29, rfl⟩
abbrev main_call0_v18 : Ref sig .tc := ⟨.hbm, 30, rfl⟩
abbrev main_call0_v19 : Ref sig .tc := ⟨.hbm, 31, rfl⟩
abbrev main_call0_c_2 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_cst_3 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_v0 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  inb_S2000x40_S2000x40_0_0 : ∀ a, (![0, 0] : Fin 2 → Nat) a + S2000x40.size a ≤ S2000x40.size a
  h_S2000x40 : 0 < S2000x40.numel
  shapeCasts_S2000x40_S2000x40 : S2000x40.ShapeCasts S2000x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  dot_S2000x512_S512x128_S2000x128_1_0_0_1_n_n_wf : DotDims.WF S2000x512 S512x128 S2000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .bf16 = 32 ∨ (Rect.block (s := S128x40) S128x40.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40.size a ≤ S40.size a
  hwx2_1 : ∀ i : grid2.Coords, EltTy.bits .f32 = 32 ∨ (Rect.block (s := S40) S40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v16) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v29) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x40, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x40, .f32⟩
  | .hbm, ⟨42, _⟩ => ⟨S1600000x40, .f32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x40, .f32⟩
  | .hbm, ⟨64, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Stages.lean ====
/-
  The five stages of a two-layer graph convolution, each as one whole-array function.

  With A the sparse adjacency given as a list of edges (rows e, cols e, vals e), the network computes
      softmax (A · (relu (A · (x · W₀) + b₀) · W₁) + b₁),
  the softmax taken along each row.  `product` is x · W₀; `aggregate` is h ↦ A · h — edge e gathers row cols e of
  h (a negative index counted from the end), scales it by vals e, and adds it into row rows e of a zero matrix —;
  `hidden` is h ↦ relu (h + b₀) · W₁; `classify` is h ↦ the row softmax of h + b₁.  They are written with the
  operations of the plain program, so that its result is their composition read off its run.
-/
import proofs.«125445_j66022237274497_2_alg».proof.Proof.Gen.ReferenceIdeal
import proofs.«125445_j66022237274497_2_alg».proof.Proof.Gen.ReferenceIdeal.Run

noncomputable section

namespace Cert.Gcn

open Idealize.ShloMosaic Idealize.ShloMosaic.TcCoe Idealize.SL.Sem Cert.ReferenceIdeal Cert.ReferenceIdeal.Gen

variable {F : FTy → Type} [FloatOps F]

/-- x · W₀: entry (p, f) is the inner product of row p of x with column f of W₀ (the weights in any float format). -/
def product {φ : FTy} (x : FVec F S100000x512 .f32) (w : FVec F S512x128 φ) : FVec F S100000x128 .f32 :=
  Host.dotGeneral dot_S100000x512_S512x128_S100000x128_1_0_0_1_n_n none x w

/-- The edge list's column indices, a negative one counted from the end, as a column of start indices. -/
def sources (cols : (⟨S1600000, .i32⟩ : BufTy).Contents (Elt F)) : (⟨S1600000x1, .i32⟩ : BufTy).Contents (Elt F) :=
  broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols)

/-- A · h for h of 128 columns. -/
def aggregate128 (h : FVec F S100000x128 .f32) (rows cols : (⟨S1600000, .i32⟩ : BufTy).Contents (Elt F)) (vals : FVec F S1600000 .f32) :
    FVec F S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 rows) (mulf (broadcastInDim S1600000x128 ![0, 1] bcast_S1600000x1_S1600000x128_0_1 (broadcastInDim S1600000x1 ![0] bcast_S1600000_S1600000x1_0 vals)) (Host.gather gather_S100000x128_S1600000x1_S1600000x128_1_0_n_n_0_1_1128 h (sources cols)))

/-- A · h for h of 40 columns. -/
def aggregate40 (h : FVec F S100000x40 .f32) (rows cols : (⟨S1600000, .i32⟩ : BufTy).Contents (Elt F)) (vals : FVec F S1600000 .f32) :
    FVec F S100000x40 .f32 :=
  Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 rows) (mulf (broadcastInDim S1600000x40 ![0, 1] bcast_S1600000x1_S1600000x40_0_1 (broadcastInDim S1600000x1 ![0] bcast_S1600000_S1600000x1_0 vals)) (Host.gather gather_S100000x40_S1600000x1_S1600000x40_1_0_n_n_0_1_140 h (sources cols)))

/-- h + b₀ with b₀ spread over the rows. -/
def biased128 (h : FVec F S100000x128 .f32) (b : FVec F S128 .f32) : FVec F S100000x128 .f32 :=
  addf h (broadcastInDim S100000x128 ![0, 1] bcast_S1x128_S100000x128_0_1 (broadcastInDim S1x128 ![1] bcast_S128_S1x128_1 b))

/-- relu (h + b₀) · W₁ (the weights in any float format). -/
def hidden {φ : FTy} (h : FVec F S100000x128 .f32) (b : FVec F S128 .f32) (w : FVec F S128x40 φ) : FVec F S100000x40 .f32 :=
  Host.dotGeneral dot_S100000x128_S128x40_S100000x40_1_0_0_1_n_n none (maximumf (biased128 h b) (broadcastInDim S100000x128 ![] bcast_S_S100000x128 (constant S_ .f32 0x00000000#32))) w

/-- h + b₁ with b₁ spread over the rows. -/
def biased40 (h : FVec F S100000x40 .f32) (b : FVec F S40 .f32) : FVec F S100000x40 .f32 :=
  addf h (broadcastInDim S100000x40 ![0, 1] bcast_S1x40_S100000x40_0_1 (broadcastInDim S1x40 ![1] bcast_S40_S1x40_1 b))

/-- The row maximum of l, taken once more against −∞, spread back over the row. -/
def rowMax (l : FVec F S100000x40 .f32) : FVec F S100000x40 .f32 :=
  broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf l (constant S_ .f32 0xFF800000#32) reducesTo_S100000x40_S100000_d1 h_S_)))

/-- The row softmax of l: exp (l − max) divided by its row sum. -/
def rowSoftmax (l : FVec F S100000x40 .f32) : FVec F S100000x40 .f32 :=
  Host.divf (Host.exp (subf l (rowMax l))) (broadcastInDim S100000x40 ![0, 1] bcast_S100000x1_S100000x40_0_1 (broadcastInDim S100000x1 ![0] bcast_S100000_S100000x1_0 (Host.reduceAdd (Host.exp (subf l (rowMax l))) (constant S_ .f32 0x00000000#32) reducesTo_S100000x40_S100000_d1 h_S_)))

/-- The row softmax of h + b₁. -/
def classify (h : FVec F S100000x40 .f32) (b : FVec F S40 .f32) : FVec F S100000x40 .f32 :=
  rowSoftmax (biased40 h b)

/-- The whole network. -/
def network (x : FVec F S100000x512 .f32) (rows cols : (⟨S1600000, .i32⟩ : BufTy).Contents (Elt F)) (vals : FVec F S1600000 .f32)
    (w0 : FVec F S512x128 .f32) (b0 : FVec F S128 .f32) (w1 : FVec F S128x40 .f32) (b1 : FVec F S40 .f32) : FVec F S100000x40 .f32 :=
  classify (aggregate40 (hidden (aggregate128 (product x w0) rows cols vals) b0 w1) rows cols vals) b1

set_option maxRecDepth 8192 in
/-- The plain program's result is the network of its arguments. -/
theorem reference_result (m : (ℓ : Loc nD τ sig) → Buf (Elt F) ℓ) (c : Dev nD) :
    Cert.ReferenceIdeal.Value.res_main_v45 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v45
  rfl

end Cert.Gcn

end
-- ==== Proof.KernelRun.lean ====
/-
  The run of the three-kernel program with its result named.

  The program is six segments: the two weight conversions, the first dense product as a kernel, the first neighbourhood
  sum on the host, the rectified second product as a kernel, the second neighbourhood sum on the host, the softmax as a
  kernel.  The buffer contents at each segment boundary are a fold from the launch memory; after the last segment
  every buffer that outlives a kernel holds what the fold says.  So the result buffer ends at the fold's last value at
  that buffer, and each argument as launched.
-/
import proofs.«125445_j66022237274497_2_alg».proof.Proof.Gen.KernelIdeal.Frame

set_option maxRecDepth 16384

noncomputable section

namespace Cert.KernelIdeal.Folded

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and the
    eight arguments end as launched. -/
theorem run : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Folded

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«125445_j66022237274497_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«125445_j66022237274497_2_alg».proof.Proof.LibInnerProducts
import proofs.«125445_j66022237274497_2_alg».proof.Proof.LibInDimRow
import proofs.«125445_j66022237274497_2_alg».proof.Proof.LibKeepdims
import proofs.«125445_j66022237274497_2_alg».proof.Proof.LibInDimLayout
import proofs.«125445_j66022237274497_2_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.LibRowSoftmax.lean ====
/-
  A row-wise softmax, read one row at a time on the extended reals.

  The maximum of row p is the supremum of its entries; taking it once more against −∞ changes nothing and is kept as
  written.  The shifted row is exponentiated, summed along the row, and each exponential divided by that sum.  A kernel
  writes this on an [M, n] block with lane reductions, a cast of the [M] results to a column [M, 1] and a broadcast back
  to [M, n]; the host writes it on an [M, n] array with reduce, two broadcasts and divide.  At (p, q) both are the
  softmax of row p at q.
-/
import Idealize.ShloMosaic.PureOps.Ideal.Laws
import Idealize.ShloMosaic.Lib.ValueIdx
import Idealize.ShloMosaic.Lib.Pipeline.Value
import proofs.«125445_j66022237274497_2_alg».proof.Proof.LibKeepdims
import proofs.«125445_j66022237274497_2_alg».proof.Proof.LibInDimLayout
import proofs.«125445_j66022237274497_2_alg».proof.Proof.LibExtremeReduce
import proofs.«125445_j66022237274497_2_alg».proof.Proof.LibDenseRows

noncomputable section

namespace Cert.DenseRows

open Idealize.ShloMosaic Idealize.ShloMosaic.ValueIdx
open scoped BigOperators

/-- Putting coordinate k back on the last axis of the row index p gives (p, k). -/
theorem lift_ix1 {M n : ℕ} (h : (⟨2, ![M, n]⟩ : Shape).Reduces [1] ⟨1, ![M]⟩) (p : Fin M) (k : Fin n) :
    h.lift (ix1 p) k = ix2 p k := by
  funext c
  apply Fin.ext
  match c with
  | ⟨0, _⟩ => rfl
  | ⟨1, _⟩ => rfl

/-- A scalar spread over a vector reads the scalar everywhere. -/
theorem inDim_scalar_apply {M : ℕ} {α : Type} (v : (⟨0, ![]⟩ : Shape).Idx → α)
    (h : (⟨0, ![]⟩ : Shape).BroadcastsInDim ⟨1, ![M]⟩ ![]) (j : (⟨1, ![M]⟩ : Shape).Idx) :
    broadcastInDim ⟨1, ![M]⟩ ![] h v j = v ix0 :=
  broadcastInDim_apply _ h v j ix0 fun a => a.elim0

/-- The kernel's softmax of an [M, n] block at (p, q). -/
theorem softmax_kernel_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (maximumf (broadcast ⟨1, ![M]⟩ (Scalar.ofBits (F := Ideal) .f32 0xFF800000#32))
              (multiReduction .maximumf [1] ⟨1, ![M]⟩ src 0xFF800000#32 h hφ hmax)) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (maximumf (broadcast ⟨1, ![M]⟩ (Scalar.ofBits (F := Ideal) .f32 0xFF800000#32))
                (multiReduction .maximumf [1] ⟨1, ![M]⟩ src 0xFF800000#32 h hφ hmax)) hc) hb)))
            0x00000000#32 h hφ hadd) hc) hb) (ix2 p q)
      = softmax (fun k => src (ix2 p k)) q := by
  -- the row maximum, spread back over the row, read at any entry of row p
  have hm : ∀ k : Fin n, broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb (ix2 p k)
        = max ⊥ (⨆ j : Fin n, src (ix2 p j)) := by
    intro k
    rw [Cert.LibKeepdims.broadcastTo_a1_ab_apply _ hb p k, Cert.LibKeepdims.shapeCast_a_a1_apply _ hc p 0]
    show max (Ideal.ofBits .f32 0xFF800000#32) (multiReduction .maximumf [1] ⟨1, ![M]⟩ src 0xFF800000#32 h hφ hmax (ix1 p)) = _
    rw [ExtremeReduce.ofBits_negInf, ExtremeReduce.multiReduction_max_single src h hφ hmax (ix1 p)]
    show max ⊥ (⨆ j : Fin n, src (h.lift (ix1 p) j)) = _
    simp only [lift_ix1]
  -- the exponential of the shifted row, at any entry of row p
  have he : ∀ k : Fin n, exp (subf src (broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold softmax
  refine congrArg (Ideal.div _) ?_
  show ∑ k : Fin n, _ = _
  refine Finset.sum_congr rfl fun k _ => ?_
  rw [lift_ix1 h p k, he k]

/-- The host's softmax of an [M, n] array at (p, q). -/
theorem softmax_host_apply {M n : ℕ} (src : FVec Ideal ⟨2, ![M, n]⟩ .f32)
    (h' : (⟨2, ![M, n]⟩ : Shape).ReducesTo [1] ⟨1, ![M]⟩) (h : (⟨2, ![M, n]⟩ : Shape).Reduces [1] ⟨1, ![M]⟩)
    (hu : 0 < (⟨0, ![]⟩ : Shape).numel) (hs : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, n]⟩ ![0, 1])
    (p : Fin M) (q : Fin n) :
    Host.divf (Host.exp (subf src (broadcastInDim ⟨2, ![M, n]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf src (constant (F := Ideal) ⟨0, ![]⟩ .f32 0xFF800000#32) h' hu))))))
        (broadcastInDim ⟨2, ![M, n]⟩ ![0, 1] h2 (broadcastInDim ⟨2, ![M, 1]⟩ ![0] h1
          (Host.reduceAdd
            (Host.exp (subf src (broadcastInDim ⟨2, ![M, n]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf src (constant (F := Ideal) ⟨0, ![]⟩ .f32 0xFF800000#32) h' hu))))))
            (constant (F := Ideal) ⟨0, ![]⟩ .f32 0x00000000#32) h' hu))) (ix2 p q)
      = softmax (fun k => src (ix2 p k)) q := by
  have hm : ∀ k : Fin n, broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))) (ix2 p k)
        = max ⊥ (⨆ j : Fin n, src (ix2 p j)) := by
    intro k
    rw [Cert.LibInDimLayout.inDim_a1_ab_apply _ h2 p k, Cert.LibInDimLayout.inDim_a_a1_apply _ h1 p 0]
    show max (broadcastInDim ⟨1, ![M]⟩ ![] hs (constant (F := Ideal) ⟨0, ![]⟩ .f32 0xFF800000#32) (ix1 p))
      (Host.reduce FloatOps.maximumf src (constant (F := Ideal) ⟨0, ![]⟩ .f32 0xFF800000#32) h' hu (ix1 p)) = _
    rw [inDim_scalar_apply _ hs (ix1 p), ExtremeReduce.hostReduce_max_single src h' h hu (ix1 p)]
    show max (Ideal.ofBits .f32 0xFF800000#32) (⨆ j : Fin n, src (h.lift (ix1 p) j)) = _
    rw [ExtremeReduce.ofBits_negInf]
    simp only [lift_ix1]
  have he : ∀ k : Fin n, Host.exp (subf src (broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))))) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibInDimLayout.inDim_a1_ab_apply _ h2 p q, Cert.LibInDimLayout.inDim_a_a1_apply _ h1 p 0]
  unfold softmax
  refine congrArg (Ideal.div _) ?_
  show Ideal.hostReduceAdd h' _ (Ideal.ofBits .f32 0x00000000#32) (ix1 p) = _
  rw [Ideal.hostReduceAdd_single h' h _ _ (ix1 p), Ideal.ofBits_zero_f32, zero_add]
  show ∑ k : Fin n, _ = _
  refine Finset.sum_congr rfl fun k _ => ?_
  rw [lift_ix1 h p k, he k]

end Cert.DenseRows

end
-- ==== Proof.LibBlockRows.lean ====
/-
  Rows of the three dense stages, read at an index on the extended reals.

  A kernel works on a block of rows and the plain program on the whole matrix; when row p of the block is row r of
  the matrix, what the kernel's operations leave at (p, f) is what the host's operations leave at (r, f):
    * a matrix product into zero: the sum over d of x (r, d) · w (d, f);
    * the rectified, biased product: the sum over d of max (h (r, d) + b d, 0) · w (d, f);
    * the row softmax of the biased row: exp (l k − M) / ∑ exp (l j − M), with l k = h (r, k) + b k and M the row
      maximum (which the host takes once more against −∞; the maximum with −∞ is the identity).
  A change of float format is the identity on the extended reals, so the formats of the factors play no part.
-/
import Idealize.ShloMosaic.PureOps.Ideal.Laws
import Idealize.ShloMosaic.Lib.ValueIdx
import Idealize.ShloMosaic.Lib.ValueLayout
import Idealize.ShloMosaic.Lib.Pipeline.Value
import proofs.«125445_j66022237274497_2_alg».proof.Proof.LibInnerProducts
import proofs.«125445_j66022237274497_2_alg».proof.Proof.LibKeepdims
import proofs.«125445_j66022237274497_2_alg».proof.Proof.LibExtremeReduce
import proofs.«125445_j66022237274497_2_alg».proof.Proof.LibDenseRows
import proofs.«125445_j66022237274497_2_alg».proof.Proof.LibRowSoftmax

noncomputable section

namespace Cert.Gcn.Rows

open Idealize.ShloMosaic Idealize.ShloMosaic.ValueIdx
open scoped BigOperators

/-- The block's product at (p, f) is the matrix's product at (r, f) when row p of the block is row r of the matrix. -/
theorem product_row {M B K N : ℕ} {φ : FTy}
    (Db : DotDims ⟨2, ![B, K]⟩ ⟨2, ![K, N]⟩ ⟨2, ![B, N]⟩) (hDb : Db = DotDims.plain B K N)
    (D : DotDims ⟨2, ![M, K]⟩ ⟨2, ![K, N]⟩ ⟨2, ![M, N]⟩) (hD : D = DotDims.plain M K N)
    (x : FVec Ideal ⟨2, ![M, K]⟩ .f32) (xb : FVec Ideal ⟨2, ![B, K]⟩ .f32) (w : FVec Ideal ⟨2, ![K, N]⟩ φ)
    (hbits : FTy.bf16.bits < FTy.f32.bits) (hs : (⟨2, ![K, N]⟩ : Shape).ShapeCasts ⟨2, ![K, N]⟩)
    (r : Fin M) (p : Fin B) (hx : ∀ d : Fin K, xb (ix2 p d) = x (ix2 r d)) (f : Fin N) :
    matmul Db none (truncf .bf16 xb hbits) (shapeCast ⟨2, ![K, N]⟩ w hs) (constant (F := Ideal) ⟨2, ![B, N]⟩ .f32 0x00000000#32) (ix2 p f)
      = Host.dotGeneral D none x w (ix2 r f) := by
  rw [InnerProducts.matmul_zero_apply Db hDb none _ _ p f, InnerProducts.dotGeneral_apply D hD none x w r f, shapeCast_self w hs]
  exact Finset.sum_congr rfl fun d _ => congrArg (· * w (ix2 d f)) (hx d)

/-- A scalar spread over a matrix reads the scalar everywhere. -/
theorem inDim_scalar_matrix_apply {a b : ℕ} {α : Type} (v : (⟨0, ![]⟩ : Shape).Idx → α)
    (h : (⟨0, ![]⟩ : Shape).BroadcastsInDim ⟨2, ![a, b]⟩ ![]) (j : (⟨2, ![a, b]⟩ : Shape).Idx) :
    broadcastInDim ⟨2, ![a, b]⟩ ![] h v j = v ix0 :=
  broadcastInDim_apply _ h v j ix0 fun ax => ax.elim0

/-- The rectified biased entry, in the kernel's form on a block and in the host's form on the matrix. -/
theorem rectified_entry {M B K : ℕ}
    (h : FVec Ideal ⟨2, ![M, K]⟩ .f32) (hb : FVec Ideal ⟨2, ![B, K]⟩ .f32) (b : FVec Ideal ⟨1, ![K]⟩ .f32)
    (hss : (⟨2, ![B, K]⟩ : Shape).ShapeCasts ⟨2, ![B, K]⟩) (hc : (⟨1, ![K]⟩ : Shape).ShapeCasts ⟨2, ![1, K]⟩)
    (hbr : (⟨2, ![1, K]⟩ : Shape).Broadcasts ⟨2, ![B, K]⟩)
    (h1 : (⟨1, ![K]⟩ : Shape).BroadcastsInDim ⟨2, ![1, K]⟩ ![1]) (h2 : (⟨2, ![1, K]⟩ : Shape).BroadcastsInDim ⟨2, ![M, K]⟩ ![0, 1])
    (h0 : (⟨0, ![]⟩ : Shape).BroadcastsInDim ⟨2, ![M, K]⟩ ![])
    (r : Fin M) (p : Fin B) (hx : ∀ d : Fin K, hb (ix2 p d) = h (ix2 r d)) (d : Fin K) :
    maximumf (addf (shapeCast ⟨2, ![B, K]⟩ hb hss) (broadcastTo ⟨2, ![B, K]⟩ (shapeCast ⟨2, ![1, K]⟩ b hc) hbr))
        (broadcast ⟨2, ![B, K]⟩ (Scalar.ofBits (F := Ideal) .f32 0x00000000#32)) (ix2 p d)
      = maximumf (addf h (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32)) (ix2 r d) := by
  show max (shapeCast ⟨2, ![B, K]⟩ hb hss (ix2 p d) + broadcastTo ⟨2, ![B, K]⟩ (shapeCast ⟨2, ![1, K]⟩ b hc) hbr (ix2 p d)) (Ideal.ofBits .f32 0x00000000#32)
    = max (h (ix2 r d) + broadcastInDim ⟨2, ![M, K]⟩ ![0, 1] h2 (broadcastInDim ⟨2, ![1, K]⟩ ![1] h1 b) (ix2 r d))
        (broadcastInDim ⟨2, ![M, K]⟩ ![] h0 (constant (F := Ideal) ⟨0, ![]⟩ .f32 0x00000000#32) (ix2 r d))
  rw [shapeCast_self hb hss, Cert.DenseRows.biasRow_apply b hc hbr p d, Cert.DenseRows.biasRowHost_apply b h1 h2 r d, hx d,
    inDim_scalar_matrix_apply _ h0 (ix2 r d)]
  rfl

/-- The block's rectified product at (p, f) is the matrix's at (r, f) when row p of the block is row r of the matrix. -/
theorem hidden_row {M B K N : ℕ} {φ : FTy}
    (Db : DotDims ⟨2, ![B, K]⟩ ⟨2, ![K, N]⟩ ⟨2, ![B, N]⟩) (hDb : Db = DotDims.plain B K N)
    (D : DotDims ⟨2, ![M, K]⟩ ⟨2, ![K, N]⟩ ⟨2, ![M, N]⟩) (hD : D = DotDims.plain M K N)
    (h : FVec Ideal ⟨2, ![M, K]⟩ .f32) (hb : FVec Ideal ⟨2, ![B, K]⟩ .f32) (b : FVec Ideal ⟨1, ![K]⟩ .f32)
    (w : FVec Ideal ⟨2, ![K, N]⟩ φ)
    (hbits : FTy.bf16.bits < FTy.f32.bits) (hs : (⟨2, ![K, N]⟩ : Shape).ShapeCasts ⟨2, ![K, N]⟩)
    (hss : (⟨2, ![B, K]⟩ : Shape).ShapeCasts ⟨2, ![B, K]⟩) (hc : (⟨1, ![K]⟩ : Shape).ShapeCasts ⟨2, ![1, K]⟩)
    (hbr : (⟨2, ![1, K]⟩ : Shape).Broadcasts ⟨2, ![B, K]⟩)
    (h1 : (⟨1, ![K]⟩ : Shape).BroadcastsInDim ⟨2, ![1, K]⟩ ![1]) (h2 : (⟨2, ![1, K]⟩ : Shape).BroadcastsInDim ⟨2, ![M, K]⟩ ![0, 1])
    (h0 : (⟨0, ![]⟩ : Shape).BroadcastsInDim ⟨2, ![M, K]⟩ ![])
    (r : Fin M) (p : Fin B) (hx : ∀ d : Fin K, hb (ix2 p d) = h (ix2 r d)) (f : Fin N) :
    matmul Db none
        (truncf .bf16 (maximumf (addf (shapeCast ⟨2, ![B, K]⟩ hb hss) (broadcastTo ⟨2, ![B, K]⟩ (shapeCast ⟨2, ![1, K]⟩ b hc) hbr))
          (broadcast ⟨2, ![B, K]⟩ (Scalar.ofBits (F := Ideal) .f32 0x00000000#32))) hbits)
        (shapeCast ⟨2, ![K, N]⟩ w hs) (constant (F := Ideal) ⟨2, ![B, N]⟩ .f32 0x00000000#32) (ix2 p f)
      = Host.dotGeneral D none
          (maximumf (addf h (broadcastInDim ⟨2, ![M, K]⟩ ![0, 1] h2 (broadcastInDim ⟨2, ![1, K]⟩ ![1] h1 b)))
            (broadcastInDim ⟨2, ![M, K]⟩ ![] h0 (constant (F := Ideal) ⟨0, ![]⟩ .f32 0x00000000#32))) w (ix2 r f) := by
  rw [InnerProducts.matmul_zero_apply Db hDb none _ _ p f, InnerProducts.dotGeneral_apply D hD none _ w r f, shapeCast_self w hs]
  exact Finset.sum_congr rfl fun d _ => congrArg (· * w (ix2 d f)) (rectified_entry h hb b hss hc hbr h1 h2 h0 r p hx d)

/-- A kernel's softmax of an [M, n] block at (p, q): lane maximum and lane sum, each cast to a column and broadcast back. -/
theorem softmax_lanes_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (multiReduction .maximumf [1] ⟨1, ![M]⟩ src 0xFF800000#32 h hφ hmax) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (multiReduction .maximumf [1] ⟨1, ![M]⟩ src 0xFF800000#32 h hφ hmax) hc) hb)))
            0x00000000#32 h hφ hadd) hc) hb) (ix2 p q)
      = Cert.DenseRows.softmax (fun k => src (ix2 p k)) q := by
  -- the row maximum, spread back over the row, read at any entry of row p
  have hm : ∀ k : Fin n, broadcastTo ⟨2, ![M, n]⟩ (shapeCast ⟨2, ![M, 1]⟩
        (multiReduction .maximumf [1] ⟨1, ![M]⟩ src 0xFF800000#32 h hφ hmax) hc) hb (ix2 p k)
        = max ⊥ (⨆ j : Fin n, src (ix2 p j)) := by
    intro k
    rw [Cert.LibKeepdims.broadcastTo_a1_ab_apply _ hb p k, Cert.LibKeepdims.shapeCast_a_a1_apply _ hc p 0,
      ExtremeReduce.multiReduction_max_single src h hφ hmax (ix1 p), max_bot_left]
    show (⨆ j : Fin n, src (h.lift (ix1 p) j)) = _
    simp only [Cert.DenseRows.lift_ix1]
  -- the exponential of the shifted row, at any entry of row p
  have he : ∀ k : Fin n, exp (subf src (broadcastTo ⟨2, ![M, n]⟩ (shapeCast ⟨2, ![M, 1]⟩
        (multiReduction .maximumf [1] ⟨1, ![M]⟩ src 0xFF800000#32 h hφ hmax) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold Cert.DenseRows.softmax
  refine congrArg (Ideal.div _) ?_
  show ∑ k : Fin n, _ = _
  refine Finset.sum_congr rfl fun k _ => ?_
  rw [Cert.DenseRows.lift_ix1 h p k, he k]

/-- The biased row, in the kernel's form on a block and in the host's form on the matrix. -/
theorem biased_entry {M B N : ℕ}
    (h : FVec Ideal ⟨2, ![M, N]⟩ .f32) (hb : FVec Ideal ⟨2, ![B, N]⟩ .f32) (b : FVec Ideal ⟨1, ![N]⟩ .f32)
    (hss : (⟨2, ![B, N]⟩ : Shape).ShapeCasts ⟨2, ![B, N]⟩) (hc : (⟨1, ![N]⟩ : Shape).ShapeCasts ⟨2, ![1, N]⟩)
    (hbr : (⟨2, ![1, N]⟩ : Shape).Broadcasts ⟨2, ![B, N]⟩)
    (h1 : (⟨1, ![N]⟩ : Shape).BroadcastsInDim ⟨2, ![1, N]⟩ ![1]) (h2 : (⟨2, ![1, N]⟩ : Shape).BroadcastsInDim ⟨2, ![M, N]⟩ ![0, 1])
    (r : Fin M) (p : Fin B) (hx : ∀ k : Fin N, hb (ix2 p k) = h (ix2 r k)) (k : Fin N) :
    addf (shapeCast ⟨2, ![B, N]⟩ hb hss) (broadcastTo ⟨2, ![B, N]⟩ (shapeCast ⟨2, ![1, N]⟩ b hc) hbr) (ix2 p k)
      = addf h (broadcastInDim ⟨2, ![M, N]⟩ ![0, 1] h2 (broadcastInDim ⟨2, ![1, N]⟩ ![1] h1 b)) (ix2 r k) := by
  show shapeCast ⟨2, ![B, N]⟩ hb hss (ix2 p k) + broadcastTo ⟨2, ![B, N]⟩ (shapeCast ⟨2, ![1, N]⟩ b hc) hbr (ix2 p k)
    = h (ix2 r k) + broadcastInDim ⟨2, ![M, N]⟩ ![0, 1] h2 (broadcastInDim ⟨2, ![1, N]⟩ ![1] h1 b) (ix2 r k)
  rw [shapeCast_self hb hss, Cert.DenseRows.biasRow_apply b hc hbr p k, Cert.DenseRows.biasRowHost_apply b h1 h2 r k, hx k]

end Cert.Gcn.Rows

end
-- ==== Proof.Region0.lean ====
/-
  The first kernel: x · W₀, fifty blocks of 2000 rows.

  Grid point t stages rows 2000 t … 2000 t + 1999 of x and the whole of the converted W₀, multiplies them into zero and
  writes the product back as rows 2000 t … 2000 t + 1999 of the result.  Row p of the block is row 2000 t + p of x, so
  what point t writes back is block t of the whole product x · W₀; the fifty blocks cover the 100000 rows (row r lies
  in block r / 2000).  Hence the result array ends holding x · W₀.
-/
import proofs.«125445_j66022237274497_2_alg».proof.Proof.Gen.KernelIdeal.Frame
import proofs.«125445_j66022237274497_2_alg».proof.Proof.Stages
import proofs.«125445_j66022237274497_2_alg».proof.Proof.LibBlockRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at grid point t: the row blocks move with t, the weights stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry y of the staged block of x at point t is x at row 2000 t + y₀. -/
theorem x_block (c : Dev nD) (t : Fin cfg0.N) (y : S2000x512.Idx) (i : S100000x512.Idx)
    (h0 : (i 0).val = t.val * 2000 + (y 0).val) (h1 : (i 1).val = (y 1).val) :
    (iblk0 V c 0 t : Vec Ideal S2000x512 .f32) y = (V c main_arg0 : S100000x512.Idx → Elt Ideal .f32) i := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 512 + 1 * (y 1).val = (i 1).val; rw [e1, h1]; omega

/-- The staged weights are the whole converted W₀ at every point. -/
theorem w_block (c : Dev nD) (t : Fin cfg0.N) :
    (iblk0 V c 1 t : Vec Ideal S512x128 .bf16) = (V c main_call0_v0 : S512x128.Idx → Elt Ideal .bf16) := by
  obtain ⟨-, -, e0, e1, -⟩ := block_indices t
  funext y
  unfold iblk0
  rw [View.read_apply]
  show V c main_call0_v0 _ = V c main_call0_v0 _
  congr 1
  funext a
  apply Fin.ext
  match a with
  | ⟨0, _⟩ => show win0_1.index t 0 * 512 + 1 * (y 0).val = (y 0).val; rw [e0]; omega
  | ⟨1, _⟩ => show win0_1.index t 1 * 128 + 1 * (y 1).val = (y 1).val; rw [e1]; omega

/-- The body's product of a block whose rows are rows of x, at entry j, is x · W₀ at the matching entry i. -/
theorem payload_entry (x : FVec Ideal S100000x512 .f32) (w : FVec Ideal S512x128 .bf16) (xb : Vec Ideal S2000x512 .f32)
    (j : S2000x128.Idx) (i : S100000x128.Idx) (h1 : (i 1).val = (j 1).val)
    (hx : ∀ d : Fin 512, xb (ix2 (j 0) d) = x (ix2 (i 0) d)) :
    k0_pay1 (F := Ideal) xb w j = Cert.Gcn.product x w i := by
  obtain ⟨p, f, rfl⟩ : ∃ (p : Fin 2000) (f : Fin 128), j = ix2 p f := ⟨j 0, j 1, eq_ix2 j⟩
  obtain ⟨r, g, rfl⟩ : ∃ (r : Fin 100000) (g : Fin 128), i = ix2 r g := ⟨i 0, i 1, eq_ix2 i⟩
  obtain rfl : f = g := Fin.ext h1.symm
  unfold k0_pay1 Cert.Gcn.product
  exact Cert.Gcn.Rows.product_row (M := 100000) (B := 2000) (K := 512) (N := 128) dot_S2000x512_S512x128_S2000x128_1_0_0_1_n_n rfl
    Cert.ReferenceIdeal.dot_S100000x512_S512x128_S100000x128_1_0_0_1_n_n rfl x xb w bitsLt_bf16_f32 shapeCasts_S512x128_S512x128 r p hx f

/-- What point t writes back is block t of x · W₀. -/
theorem flushed (c : Dev nD) (t : Fin cfg0.N) :
    (dat0 V c).flushed 2 t = ((cfg0.win 2).blk t).view.read (Elt Ideal) (Cert.Gcn.product (F := Ideal) (φ := .bf16) (V c main_arg0) (V c main_call0_v0)) := by
  show (cfg0.win 2).cut (grid0.coords t) ((dat0 V c).after 2 t) = _
  rw [after0_2]
  unfold out0_2
  rw [View.canon_unit_zero zeros]
  simp only [View.ld_unit_zero (S := S2000x512) zeros, View.ld_unit_zero (S := S512x128) zeros]
  rw [w_block V c t]
  obtain ⟨-, -, -, -, e0, e1⟩ := block_indices t
  funext j
  refine payload_entry (V c main_arg0) (V c main_call0_v0) (iblk0 V c 0 t) j (((cfg0.win 2).blk t).view.emb j) ?_ ?_
  · show win0_2.index t 1 * 128 + 1 * (j 1).val = (j 1).val
    rw [e1]; omega
  · intro d
    refine x_block V c t (ix2 (j 0) d) _ ?_ rfl
    show win0_2.index t 0 * 2000 + 1 * (j 0).val = t.val * 2000 + (j 0).val
    rw [e0]; omega

/-- An index of the result lies in point t's block iff its row lies in the block's 2000 rows. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_call0_v2).slice (win0_2.rect t)).set ↔ _
  rw [View.set_slice_whole, Rect.mem_set_unit]
  exact Iff.rfl

/-- After the fifty points the result array holds x · W₀, whatever it held before. -/
theorem final (c : Dev nD) :
    (dat0 V c).arrAt 2 cfg0.N = Cert.Gcn.product (F := Ideal) (φ := .bf16) (V c main_arg0) (V c main_call0_v0) :=
  (dat0 V c).arrAt_eq_of_cover 2 _ (fun t _ => flushed V c t) fun i => by
    have hr : (i 0).val < 100000 := (i 0).isLt
    have hf : (i 1).val < 128 := (i 1).isLt
    have hN : cfg0.N = 50 := N_0
    let t : Fin cfg0.N := ⟨(i 0).val / 2000, by omega⟩
    obtain ⟨-, -, -, -, e0, e1⟩ := block_indices t
    refine ⟨t, flush0_2 t, ?_⟩
    rw [mem_block]
    intro a
    match a with
    | ⟨0, _⟩ => show win0_2.index t 0 * 2000 ≤ (i 0).val ∧ (i 0).val < win0_2.index t 0 * 2000 + 2000
                rw [e0]; show (i 0).val / 2000 * 2000 ≤ (i 0).val ∧ (i 0).val < (i 0).val / 2000 * 2000 + 2000; omega
    | ⟨1, _⟩ => show win0_2.index t 1 * 128 ≤ (i 1).val ∧ (i 1).val < win0_2.index t 1 * 128 + 128
                rw [e1]; omega

end Cert.KernelIdeal.Product

end
-- ==== Proof.Region1.lean ====
/-
  The second kernel: relu (h + b₀) · W₁, twenty blocks of 5000 rows.

  Grid point t stages rows 5000 t … 5000 t + 4999 of the aggregated hidden features h, the whole bias b₀ and the
  whole converted W₁; it adds the bias to every row, rectifies, multiplies into zero and writes the product back as
  rows 5000 t … 5000 t + 4999 of the result.  Row p of the block is row 5000 t + p of h and every entry of the
  product depends on that row alone, so what point t writes back is block t of relu (h + b₀) · W₁ computed on the
  whole matrix; the twenty blocks cover the 100000 rows.
-/
import proofs.«125445_j66022237274497_2_alg».proof.Proof.Gen.KernelIdeal.Frame
import proofs.«125445_j66022237274497_2_alg».proof.Proof.Stages
import proofs.«125445_j66022237274497_2_alg».proof.Proof.LibBlockRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl
theorem zero : (![0] : Fin 1 → Nat) = fun _ => 0 := funext fun a => by fin_cases a; rfl

/-- Where each window's block sits at grid point t: the row blocks move with t, the bias and the weights stay. -/
theorem block_indices : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry y of the staged block of h at point t is h at row 5000 t + y₀. -/
theorem h_block (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_call0_v15 : S100000x128.Idx → Elt Ideal .f32) i := by
  obtain ⟨e0, e1, -⟩ := block_indices t
  unfold iblk1
  rw [View.read_apply]
  show V c main_call0_v15 _ = V c main_call0_v15 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The staged bias is the whole of b₀ at every point. -/
theorem b_block (c : Dev nD) (t : Fin cfg1.N) :
    (iblk1 V c 1 t : Vec Ideal S128 .f32) = (V c main_arg5 : S128.Idx → Elt Ideal .f32) := by
  obtain ⟨-, -, e0, -⟩ := block_indices t
  funext y
  unfold iblk1
  rw [View.read_apply]
  show V c main_arg5 _ = V c main_arg5 _
  congr 1
  funext a
  apply Fin.ext
  match a with
  | ⟨0, _⟩ => show win1_1.index t 0 * 128 + 1 * (y 0).val = (y 0).val; rw [e0]; omega

/-- The staged weights are the whole converted W₁ at every point. -/
theorem w_block (c : Dev nD) (t : Fin cfg1.N) :
    (iblk1 V c 2 t : Vec Ideal S128x40 .bf16) = (V c main_call0_v1 : S128x40.Idx → Elt Ideal .bf16) := by
  obtain ⟨-, -, -, e0, e1, -⟩ := block_indices t
  funext y
  unfold iblk1
  rw [View.read_apply]
  show V c main_call0_v1 _ = V c main_call0_v1 _
  congr 1
  funext a
  apply Fin.ext
  match a with
  | ⟨0, _⟩ => show win1_2.index t 0 * 128 + 1 * (y 0).val = (y 0).val; rw [e0]; omega
  | ⟨1, _⟩ => show win1_2.index t 1 * 40 + 1 * (y 1).val = (y 1).val; rw [e1]; omega

/-- The body's rectified product of a block whose rows are rows of h, at entry j, is relu (h + b₀) · W₁ at the matching
    entry i. -/
theorem payload_entry (h : FVec Ideal S100000x128 .f32) (b : FVec Ideal S128 .f32) (w : FVec Ideal S128x40 .bf16)
    (hb : Vec Ideal S5000x128 .f32) (j : S5000x40.Idx) (i : S100000x40.Idx) (h1 : (i 1).val = (j 1).val)
    (hx : ∀ d : Fin 128, hb (ix2 (j 0) d) = h (ix2 (i 0) d)) :
    k1_pay1 (F := Ideal) hb b w j = Cert.Gcn.hidden h b w i := by
  obtain ⟨p, f, rfl⟩ : ∃ (p : Fin 5000) (f : Fin 40), j = ix2 p f := ⟨j 0, j 1, eq_ix2 j⟩
  obtain ⟨r, g, rfl⟩ : ∃ (r : Fin 100000) (g : Fin 40), i = ix2 r g := ⟨i 0, i 1, eq_ix2 i⟩
  obtain rfl : f = g := Fin.ext h1.symm
  unfold k1_pay1 Cert.Gcn.hidden Cert.Gcn.biased128
  exact Cert.Gcn.Rows.hidden_row (M := 100000) (B := 5000) (K := 128) (N := 40) dot_S5000x128_S128x40_S5000x40_1_0_0_1_n_n rfl
    Cert.ReferenceIdeal.dot_S100000x128_S128x40_S100000x40_1_0_0_1_n_n rfl h hb b w bitsLt_bf16_f32 shapeCasts_S128x40_S128x40
    shapeCasts_S5000x128_S5000x128 shapeCasts_S128_S1x128 broadcasts_S1x128_S5000x128
    Cert.ReferenceIdeal.Facts₀.bcast_S128_S1x128_1 Cert.ReferenceIdeal.Facts₀.bcast_S1x128_S100000x128_0_1 Cert.ReferenceIdeal.Facts₀.bcast_S_S100000x128
    r p hx f

/-- What point t writes back is block t of relu (h + b₀) · W₁. -/
theorem flushed (c : Dev nD) (t : Fin cfg1.N) :
    (dat1 V c).flushed 3 t = ((cfg1.win 3).blk t).view.read (Elt Ideal)
      (Cert.Gcn.hidden (F := Ideal) (φ := .bf16) (V c main_call0_v15) (V c main_arg5) (V c main_call0_v1)) := by
  show (cfg1.win 3).cut (grid1.coords t) ((dat1 V c).after 3 t) = _
  rw [after1_3]
  unfold out1_3
  rw [View.canon_unit_zero zeros]
  simp only [View.ld_unit_zero (S := S5000x128) zeros, View.ld_unit_zero (S := S128) zero, View.ld_unit_zero (S := S128x40) zeros]
  rw [b_block V c t, w_block V c t]
  obtain ⟨-, -, -, -, -, e0, e1⟩ := block_indices t
  funext j
  refine payload_entry (V c main_call0_v15) (V c main_arg5) (V c main_call0_v1) (iblk1 V c 0 t) j (((cfg1.win 3).blk t).view.emb j) ?_ ?_
  · show win1_3.index t 1 * 40 + 1 * (j 1).val = (j 1).val
    rw [e1]; omega
  · intro d
    refine h_block V c t (ix2 (j 0) d) _ ?_ rfl
    show win1_3.index t 0 * 5000 + 1 * (j 0).val = t.val * 5000 + (j 0).val
    rw [e0]; omega

/-- An index of the result lies in point t's block iff its row lies in the block's 5000 rows. -/
theorem mem_block (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_call0_v16).slice (win1_3.rect t)).set ↔ _
  rw [View.set_slice_whole, Rect.mem_set_unit]
  exact Iff.rfl

/-- After the twenty points the result array holds relu (h + b₀) · W₁, whatever it held before. -/
theorem final (c : Dev nD) :
    (dat1 V c).arrAt 3 cfg1.N = Cert.Gcn.hidden (F := Ideal) (φ := .bf16) (V c main_call0_v15) (V c main_arg5) (V c main_call0_v1) :=
  (dat1 V c).arrAt_eq_of_cover 3 _ (fun t _ => flushed V c t) fun i => by
    have hr : (i 0).val < 100000 := (i 0).isLt
    have hf : (i 1).val < 40 := (i 1).isLt
    have hN : cfg1.N = 20 := N_1
    let t : Fin cfg1.N := ⟨(i 0).val / 5000, by omega⟩
    obtain ⟨-, -, -, -, -, e0, e1⟩ := block_indices t
    refine ⟨t, flush1_3 t, ?_⟩
    rw [mem_block]
    intro a
    match a with
    | ⟨0, _⟩ => show win1_3.index t 0 * 5000 ≤ (i 0).val ∧ (i 0).val < win1_3.index t 0 * 5000 + 5000
                rw [e0]; show (i 0).val / 5000 * 5000 ≤ (i 0).val ∧ (i 0).val < (i 0).val / 5000 * 5000 + 5000; omega
    | ⟨1, _⟩ => show win1_3.index t 1 * 40 ≤ (i 1).val ∧ (i 1).val < win1_3.index t 1 * 40 + 40
                rw [e1]; omega

end Cert.KernelIdeal.Hidden

end
-- ==== Proof.Region2.lean ====
/-
  The third kernel: the row softmax of h + b₁, fifty blocks of 2000 rows.

  Grid point t stages rows 2000 t … 2000 t + 1999 of the aggregated class scores h and the whole bias b₁; it adds the
  bias to every row, subtracts the row maximum, exponentiates, divides by the row sum and writes the block back as rows
  2000 t … 2000 t + 1999 of the result.  A row's softmax depends on that row alone, and row p of the block is row
  2000 t + p of h, so what point t writes back is block t of the row softmax of h + b₁ computed on the whole matrix;
  the fifty blocks cover the 100000 rows.
-/
import proofs.«125445_j66022237274497_2_alg».proof.Proof.Gen.KernelIdeal.Frame
import proofs.«125445_j66022237274497_2_alg».proof.Proof.Stages
import proofs.«125445_j66022237274497_2_alg».proof.Proof.LibBlockRows
import proofs.«125445_j66022237274497_2_alg».proof.Proof.LibRowSoftmax
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Softmax

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl
theorem zero : (![0] : Fin 1 → Nat) = fun _ => 0 := funext fun a => by fin_cases a; rfl

/-- Where each window's block sits at grid point t: the row blocks move with t, the bias stays. -/
theorem block_indices : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- Entry y of the staged block of h at point t is h at row 2000 t + y₀. -/
theorem h_block (c : Dev nD) (t : Fin cfg2.N) (y : S2000x40.Idx) (i : S100000x40.Idx)
    (h0 : (i 0).val = t.val * 2000 + (y 0).val) (h1 : (i 1).val = (y 1).val) :
    (iblk2 V c 0 t : Vec Ideal S2000x40 .f32) y = (V c main_call0_v29 : S100000x40.Idx → Elt Ideal .f32) i := by
  obtain ⟨e0, e1, -⟩ := block_indices t
  unfold iblk2
  rw [View.read_apply]
  show V c main_call0_v29 _ = V c main_call0_v29 _
  congr 1
  funext a
  apply Fin.ext
  match a with
  | ⟨0, _⟩ => show win2_0.index t 0 * 2000 + 1 * (y 0).val = (i 0).val; rw [e0, h0]; omega
  | ⟨1, _⟩ => show win2_0.index t 1 * 40 + 1 * (y 1).val = (i 1).val; rw [e1, h1]; omega

/-- The staged bias is the whole of b₁ at every point. -/
theorem b_block (c : Dev nD) (t : Fin cfg2.N) :
    (iblk2 V c 1 t : Vec Ideal S40 .f32) = (V c main_arg7 : S40.Idx → Elt Ideal .f32) := by
  obtain ⟨-, -, e0, -⟩ := block_indices t
  funext y
  unfold iblk2
  rw [View.read_apply]
  show V c main_arg7 _ = V c main_arg7 _
  congr 1
  funext a
  apply Fin.ext
  match a with
  | ⟨0, _⟩ => show win2_1.index t 0 * 40 + 1 * (y 0).val = (y 0).val; rw [e0]; omega

/-- The body's softmax of a block whose rows are rows of h, at entry j, is the row softmax of h + b₁ at the matching
    entry i: both are the softmax of the one biased row. -/
theorem payload_entry (h : FVec Ideal S100000x40 .f32) (b : FVec Ideal S40 .f32)
    (hb : Vec Ideal S2000x40 .f32) (j : S2000x40.Idx) (i : S100000x40.Idx) (h1 : (i 1).val = (j 1).val)
    (hx : ∀ k : Fin 40, hb (ix2 (j 0) k) = h (ix2 (i 0) k)) :
    k2_pay1 (F := Ideal) hb b j = Cert.Gcn.classify h b i := by
  obtain ⟨p, q, rfl⟩ : ∃ (p : Fin 2000) (q : Fin 40), j = ix2 p q := ⟨j 0, j 1, eq_ix2 j⟩
  obtain ⟨r, g, rfl⟩ : ∃ (r : Fin 100000) (g : Fin 40), i = ix2 r g := ⟨i 0, i 1, eq_ix2 i⟩
  obtain rfl : q = g := Fin.ext h1.symm
  unfold k2_pay1 Cert.Gcn.classify Cert.Gcn.rowSoftmax Cert.Gcn.rowMax Cert.Gcn.biased40
  refine (Cert.Gcn.Rows.softmax_lanes_apply (M := 2000) (n := 40) _ reduces_S2000x40_S2000 (.inl rfl) rfl rfl
    shapeCasts_S2000_S2000x1 broadcasts_S2000x1_S2000x40 p q).trans ?_
  refine Eq.trans ?_ (Cert.DenseRows.softmax_host_apply (M := 100000) (n := 40) _ Cert.ReferenceIdeal.Facts₀.reducesTo_S100000x40_S100000_d1
    (by decide) Cert.ReferenceIdeal.Facts₀.h_S_ Cert.ReferenceIdeal.Facts₀.bcast_S_S100000 Cert.ReferenceIdeal.Facts₀.bcast_S100000_S100000x1_0
    Cert.ReferenceIdeal.Facts₀.bcast_S100000x1_S100000x40_0_1 r q).symm
  congr 1
  funext k
  exact Cert.Gcn.Rows.biased_entry (M := 100000) (B := 2000) (N := 40) h hb b shapeCasts_S2000x40_S2000x40 shapeCasts_S40_S1x40
    broadcasts_S1x40_S2000x40 Cert.ReferenceIdeal.Facts₀.bcast_S40_S1x40_1 Cert.ReferenceIdeal.Facts₀.bcast_S1x40_S100000x40_0_1 r p hx k

/-- What point t writes back is block t of the row softmax of h + b₁. -/
theorem flushed (c : Dev nD) (t : Fin cfg2.N) :
    (dat2 V c).flushed 2 t = ((cfg2.win 2).blk t).view.read (Elt Ideal)
      (Cert.Gcn.classify (F := Ideal) (V c main_call0_v29) (V c main_arg7)) := by
  show (cfg2.win 2).cut (grid2.coords t) ((dat2 V c).after 2 t) = _
  rw [after2_2]
  unfold out2_2
  rw [View.canon_unit_zero zeros]
  simp only [View.ld_unit_zero (S := S2000x40) zeros, View.ld_unit_zero (S := S40) zero]
  rw [b_block V c t]
  obtain ⟨-, -, -, e0, e1⟩ := block_indices t
  funext j
  refine payload_entry (V c main_call0_v29) (V c main_arg7) (iblk2 V c 0 t) j (((cfg2.win 2).blk t).view.emb j) ?_ ?_
  · show win2_2.index t 1 * 40 + 1 * (j 1).val = (j 1).val
    rw [e1]; omega
  · intro k
    refine h_block V c t (ix2 (j 0) k) _ ?_ rfl
    show win2_2.index t 0 * 2000 + 1 * (j 0).val = t.val * 2000 + (j 0).val
    rw [e0]; omega

/-- An index of the result lies in point t's block iff its row lies in the block's 2000 rows. -/
theorem mem_block (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v0).slice (win2_2.rect t)).set ↔ _
  rw [View.set_slice_whole, Rect.mem_set_unit]
  exact Iff.rfl

/-- After the fifty points the result array holds the row softmax of h + b₁, whatever it held before. -/
theorem final (c : Dev nD) :
    (dat2 V c).arrAt 2 cfg2.N = Cert.Gcn.classify (F := Ideal) (V c main_call0_v29) (V c main_arg7) :=
  (dat2 V c).arrAt_eq_of_cover 2 _ (fun t _ => flushed V c t) fun i => by
    have hr : (i 0).val < 100000 := (i 0).isLt
    have hf : (i 1).val < 40 := (i 1).isLt
    have hN : cfg2.N = 50 := N_2
    let t : Fin cfg2.N := ⟨(i 0).val / 2000, by omega⟩
    obtain ⟨-, -, -, e0, e1⟩ := block_indices t
    refine ⟨t, flush2_2 t, ?_⟩
    rw [mem_block]
    intro a
    match a with
    | ⟨0, _⟩ => show win2_2.index t 0 * 2000 ≤ (i 0).val ∧ (i 0).val < win2_2.index t 0 * 2000 + 2000
                rw [e0]; show (i 0).val / 2000 * 2000 ≤ (i 0).val ∧ (i 0).val < (i 0).val / 2000 * 2000 + 2000; omega
    | ⟨1, _⟩ => show win2_2.index t 1 * 40 ≤ (i 1).val ∧ (i 1).val < win2_2.index t 1 * 40 + 40
                rw [e1]; omega

end Cert.KernelIdeal.Softmax

end
-- ==== Proof.Boundaries.lean ====
/-
  The buffer contents at the six segment boundaries, as stages of the network.

  Walking the program's segments in order from the launch memory: the conversions leave W₀ and W₁ themselves (a change of
  float format is the identity on the extended reals); the first kernel leaves x · W₀; the host's gather, scale and
  scatter-add leave A · (x · W₀); the second kernel leaves relu (A · (x · W₀) + b₀) · W₁; the host leaves A times that;
  the third kernel leaves its row softmax after adding b₁.  No segment writes an argument, so each stage reads the
  arguments as launched.  The result buffer therefore ends at the network of the eight arguments.
-/
import proofs.«125445_j66022237274497_2_alg».proof.Proof.Gen.KernelIdeal.Frame
import proofs.«125445_j66022237274497_2_alg».proof.Proof.Stages
import proofs.«125445_j66022237274497_2_alg».proof.Proof.Region0
import proofs.«125445_j66022237274497_2_alg».proof.Proof.Region1
import proofs.«125445_j66022237274497_2_alg».proof.Proof.Region2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundaries

open Cert.KernelIdeal Cert.KernelIdeal.Gen

variable (m : (ℓ : Loc nD τ sig) → Buf (Elt Ideal) ℓ) (ρ : Dev nD → PrngReg) (c : Dev nD)

/-! ## After the conversions -/

theorem w0_converted : W1 m ρ c (Proc.devRef .tc main_call0_v0) = (truncf .bf16 (m ((c : Thread nD τ).loc main_arg4) : FVec Ideal S512x128 .f32) bitsLt_bf16_f32 : FVec Ideal S512x128 .bf16) := by
  show StableHlo.after hostOps0 (W0 m ρ c) _ = _
  dsimp only [hostOps0]; after_results_simp <;> rfl
theorem w1_converted : W1 m ρ c (Proc.devRef .tc main_call0_v1) = (truncf .bf16 (m ((c : Thread nD τ).loc main_arg6) : FVec Ideal S128x40 .f32) bitsLt_bf16_f32 : FVec Ideal S128x40 .bf16) := by
  show StableHlo.after hostOps0 (W0 m ρ c) _ = _
  dsimp only [hostOps0]; after_results_simp <;> rfl
theorem x_at1 : W1 m ρ c (Proc.devRef .tc main_arg0) = m ((c : Thread nD τ).loc main_arg0) := by
  show StableHlo.after hostOps0 (W0 m ρ c) _ = _
  dsimp only [hostOps0]; after_results_simp <;> rfl
theorem rows_at1 : W1 m ρ c (Proc.devRef .tc main_arg1) = m ((c : Thread nD τ).loc main_arg1) := by
  show StableHlo.after hostOps0 (W0 m ρ c) _ = _
  dsimp only [hostOps0]; after_results_simp <;> rfl
theorem cols_at1 : W1 m ρ c (Proc.devRef .tc main_arg2) = m ((c : Thread nD τ).loc main_arg2) := by
  show StableHlo.after hostOps0 (W0 m ρ c) _ = _
  dsimp only [hostOps0]; after_results_simp <;> rfl
theorem vals_at1 : W1 m ρ c (Proc.devRef .tc main_arg3) = m ((c : Thread nD τ).loc main_arg3) := by
  show StableHlo.after hostOps0 (W0 m ρ c) _ = _
  dsimp only [hostOps0]; after_results_simp <;> rfl
theorem b0_at1 : W1 m ρ c (Proc.devRef .tc main_arg5) = m ((c : Thread nD τ).loc main_arg5) := by
  show StableHlo.after hostOps0 (W0 m ρ c) _ = _
  dsimp only [hostOps0]; after_results_simp <;> rfl
theorem b1_at1 : W1 m ρ c (Proc.devRef .tc main_arg7) = m ((c : Thread nD τ).loc main_arg7) := by
  show StableHlo.after hostOps0 (W0 m ρ c) _ = _
  dsimp only [hostOps0]; after_results_simp <;> rfl

/-! ## After the first kernel -/

theorem product_at2 : W2 m ρ c (Proc.devRef .tc main_call0_v2)
    = Cert.Gcn.product (F := Ideal) (φ := .f32) (m ((c : Thread nD τ).loc main_arg0)) (m ((c : Thread nD τ).loc main_arg4)) := by
  refine (W2_arr m ρ c 2).trans ((Cert.KernelIdeal.Product.final (V1 m ρ) c).trans ?_)
  show Cert.Gcn.product (F := Ideal) (φ := .bf16) (W1 m ρ c (Proc.devRef .tc main_arg0)) (W1 m ρ c (Proc.devRef .tc main_call0_v0)) = _
  rw [x_at1, w0_converted]
  rfl
theorem rows_at2 : W2 m ρ c (Proc.devRef .tc main_arg1) = m ((c : Thread nD τ).loc main_arg1) :=
  (W2_of_ne m ρ c main_arg1 (by decide)).trans (rows_at1 m ρ c)
theorem cols_at2 : W2 m ρ c (Proc.devRef .tc main_arg2) = m ((c : Thread nD τ).loc main_arg2) :=
  (W2_of_ne m ρ c main_arg2 (by decide)).trans (cols_at1 m ρ c)
theorem vals_at2 : W2 m ρ c (Proc.devRef .tc main_arg3) = m ((c : Thread nD τ).loc main_arg3) :=
  (W2_of_ne m ρ c main_arg3 (by decide)).trans (vals_at1 m ρ c)
theorem b0_at2 : W2 m ρ c (Proc.devRef .tc main_arg5) = m ((c : Thread nD τ).loc main_arg5) :=
  (W2_of_ne m ρ c main_arg5 (by decide)).trans (b0_at1 m ρ c)
theorem b1_at2 : W2 m ρ c (Proc.devRef .tc main_arg7) = m ((c : Thread nD τ).loc main_arg7) :=
  (W2_of_ne m ρ c main_arg7 (by decide)).trans (b1_at1 m ρ c)
theorem w1_at2 : W2 m ρ c (Proc.devRef .tc main_call0_v1) = (truncf .bf16 (m ((c : Thread nD τ).loc main_arg6) : FVec Ideal S128x40 .f32) bitsLt_bf16_f32 : FVec Ideal S128x40 .bf16) :=
  (W2_of_ne m ρ c main_call0_v1 (by decide)).trans (w1_converted m ρ c)

/-! ## After the first neighbourhood sum -/

set_option maxHeartbeats 4000000 in
theorem aggregate_at3 : W3 m ρ c (Proc.devRef .tc main_call0_v15)
    = Cert.Gcn.aggregate128 (F := Ideal) (Cert.Gcn.product (F := Ideal) (φ := .f32) (m ((c : Thread nD τ).loc main_arg0)) (m ((c : Thread nD τ).loc main_arg4)))
        (m ((c : Thread nD τ).loc main_arg1)) (m ((c : Thread nD τ).loc main_arg2)) (m ((c : Thread nD τ).loc main_arg3)) := by
  rw [← product_at2 m ρ c, ← rows_at2 m ρ c, ← cols_at2 m ρ c, ← vals_at2 m ρ c]
  show StableHlo.after hostOps1 (W2 m ρ c) _ = _
  dsimp only [hostOps1]; after_results_simp
  simp only [TRef.toBuf, TRef.ofBuf, cast_eq]
  unfold Cert.Gcn.aggregate128 Cert.Gcn.sources
  rfl
theorem rows_at3 : W3 m ρ c (Proc.devRef .tc main_arg1) = m ((c : Thread nD τ).loc main_arg1) := by
  rw [← rows_at2 m ρ c]
  show StableHlo.after hostOps1 (W2 m ρ c) _ = _
  dsimp only [hostOps1]; after_results_simp <;> rfl
theorem cols_at3 : W3 m ρ c (Proc.devRef .tc main_arg2) = m ((c : Thread nD τ).loc main_arg2) := by
  rw [← cols_at2 m ρ c]
  show StableHlo.after hostOps1 (W2 m ρ c) _ = _
  dsimp only [hostOps1]; after_results_simp <;> rfl
theorem vals_at3 : W3 m ρ c (Proc.devRef .tc main_arg3) = m ((c : Thread nD τ).loc main_arg3) := by
  rw [← vals_at2 m ρ c]
  show StableHlo.after hostOps1 (W2 m ρ c) _ = _
  dsimp only [hostOps1]; after_results_simp <;> rfl
theorem b0_at3 : W3 m ρ c (Proc.devRef .tc main_arg5) = m ((c : Thread nD τ).loc main_arg5) := by
  rw [← b0_at2 m ρ c]
  show StableHlo.after hostOps1 (W2 m ρ c) _ = _
  dsimp only [hostOps1]; after_results_simp <;> rfl
theorem b1_at3 : W3 m ρ c (Proc.devRef .tc main_arg7) = m ((c : Thread nD τ).loc main_arg7) := by
  rw [← b1_at2 m ρ c]
  show StableHlo.after hostOps1 (W2 m ρ c) _ = _
  dsimp only [hostOps1]; after_results_simp <;> rfl
theorem w1_at3 : W3 m ρ c (Proc.devRef .tc main_call0_v1) = (truncf .bf16 (m ((c : Thread nD τ).loc main_arg6) : FVec Ideal S128x40 .f32) bitsLt_bf16_f32 : FVec Ideal S128x40 .bf16) := by
  rw [← w1_at2 m ρ c]
  show StableHlo.after hostOps1 (W2 m ρ c) _ = _
  dsimp only [hostOps1]; after_results_simp <;> rfl

/-! ## After the second kernel -/

/-- The hidden layer's output: relu (A · (x · W₀) + b₀) · W₁. -/
def hiddenOut : FVec Ideal Cert.ReferenceIdeal.S100000x40 .f32 :=
  Cert.Gcn.hidden (F := Ideal) (φ := .f32)
    (Cert.Gcn.aggregate128 (F := Ideal) (Cert.Gcn.product (F := Ideal) (φ := .f32) (m ((c : Thread nD τ).loc main_arg0)) (m ((c : Thread nD τ).loc main_arg4))) (m ((c : Thread nD τ).loc main_arg1)) (m ((c : Thread nD τ).loc main_arg2)) (m ((c : Thread nD τ).loc main_arg3)))
    (m ((c : Thread nD τ).loc main_arg5)) (m ((c : Thread nD τ).loc main_arg6))

theorem hidden_at4 : W4 m ρ c (Proc.devRef .tc main_call0_v16) = hiddenOut m c := by
  refine (W4_arr m ρ c 3).trans ((Cert.KernelIdeal.Hidden.final (V3 m ρ) c).trans ?_)
  show Cert.Gcn.hidden (F := Ideal) (φ := .bf16) (W3 m ρ c (Proc.devRef .tc main_call0_v15)) (W3 m ρ c (Proc.devRef .tc main_arg5))
    (W3 m ρ c (Proc.devRef .tc main_call0_v1)) = _
  rw [aggregate_at3, b0_at3, w1_at3]
  rfl
theorem rows_at4 : W4 m ρ c (Proc.devRef .tc main_arg1) = m ((c : Thread nD τ).loc main_arg1) :=
  (W4_of_ne m ρ c main_arg1 (by decide)).trans (rows_at3 m ρ c)
theorem cols_at4 : W4 m ρ c (Proc.devRef .tc main_arg2) = m ((c : Thread nD τ).loc main_arg2) :=
  (W4_of_ne m ρ c main_arg2 (by decide)).trans (cols_at3 m ρ c)
theorem vals_at4 : W4 m ρ c (Proc.devRef .tc main_arg3) = m ((c : Thread nD τ).loc main_arg3) :=
  (W4_of_ne m ρ c main_arg3 (by decide)).trans (vals_at3 m ρ c)
theorem b1_at4 : W4 m ρ c (Proc.devRef .tc main_arg7) = m ((c : Thread nD τ).loc main_arg7) :=
  (W4_of_ne m ρ c main_arg7 (by decide)).trans (b1_at3 m ρ c)

/-! ## After the second neighbourhood sum -/

set_option maxHeartbeats 4000000 in
theorem aggregate_at5 : W5 m ρ c (Proc.devRef .tc main_call0_v29)
    = Cert.Gcn.aggregate40 (F := Ideal) (hiddenOut m c) (m ((c : Thread nD τ).loc main_arg1)) (m ((c : Thread nD τ).loc main_arg2)) (m ((c : Thread nD τ).loc main_arg3)) := by
  rw [← hidden_at4 m ρ c, ← rows_at4 m ρ c, ← cols_at4 m ρ c, ← vals_at4 m ρ c]
  show StableHlo.after hostOps2 (W4 m ρ c) _ = _
  dsimp only [hostOps2]; after_results_simp
  simp only [TRef.toBuf, TRef.ofBuf, cast_eq]
  unfold Cert.Gcn.aggregate40 Cert.Gcn.sources
  rfl
theorem b1_at5 : W5 m ρ c (Proc.devRef .tc main_arg7) = m ((c : Thread nD τ).loc main_arg7) := by
  rw [← b1_at4 m ρ c]
  show StableHlo.after hostOps2 (W4 m ρ c) _ = _
  dsimp only [hostOps2]; after_results_simp <;> rfl

/-! ## After the third kernel -/

/-- The result buffer ends at the network of the eight arguments. -/
theorem result : W6 m ρ c (Proc.devRef .tc main_v0)
    = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 2).trans ((Cert.KernelIdeal.Softmax.final (V5 m ρ) c).trans ?_)
  show Cert.Gcn.classify (F := Ideal) (W5 m ρ c (Proc.devRef .tc main_call0_v29)) (W5 m ρ c (Proc.devRef .tc main_arg7)) = _
  rw [aggregate_at5, b1_at5]
  rfl

end Cert.KernelIdeal.Boundaries

end
-- ==== Proof.lean ====
/-
  A two-layer graph convolution in three kernels against the plain program: equal on the extended reals.

  With A the sparse adjacency given by the edge list (rows, cols, vals), both programs compute
      softmax (A · (relu (A · (x · W₀) + b₀) · W₁) + b₁),   the softmax along each row.
  The kernel program tiles the three dense stages over blocks of rows — x · W₀ in fifty blocks of 2000 rows,
  relu (· + b₀) · W₁ in twenty blocks of 5000 rows, the biased row softmax in fifty blocks of 2000 rows — with its weight
  matrices converted to a narrower float format, and runs the two neighbourhood sums A · h on the host with the very
  operations the plain program uses.  On the extended reals a change of format is the identity, a matrix product
  accumulated into zero is the plain sum of products, and every entry of a dense stage depends on one row of its
  input alone; so each kernel leaves in its result array exactly the whole-matrix stage (Region0, Region1, Region2
  over the row lemmas of LibBlockRows), the segment boundaries of the run carry the stages one into the next (Boundaries over
  the run of KernelRun), and the plain program's result is the same composition read off its run (Stages).  No
  rearrangement of a sum is needed, so the finiteness of the inputs is never used.  The idealization rewrote no
  operation, so there is nothing to preserve beyond the program's own text.
-/
import proofs.«125445_j66022237274497_2_alg».proof.Defs
import proofs.«125445_j66022237274497_2_alg».proof.Proof.Gen.Kernel
import proofs.«125445_j66022237274497_2_alg».proof.Proof.Gen.Kernel.Frame
import proofs.«125445_j66022237274497_2_alg».proof.Proof.Gen.KernelIdeal
import proofs.«125445_j66022237274497_2_alg».proof.Proof.Gen.KernelIdeal.Frame
import proofs.«125445_j66022237274497_2_alg».proof.Proof.Gen.ReferenceIdeal
import proofs.«125445_j66022237274497_2_alg».proof.Proof.Gen.Pre_finite_inputs
import proofs.«125445_j66022237274497_2_alg».proof.Proof.Gen.ReferenceIdeal.Run
import proofs.«125445_j66022237274497_2_alg».proof.Proof.Stages
import proofs.«125445_j66022237274497_2_alg».proof.Proof.KernelRun
import proofs.«125445_j66022237274497_2_alg».proof.Proof.Boundaries
import Idealize.ShloMosaic.Adequacy
import Idealize.ShloMosaic.Init

noncomputable section

namespace Cert.Proof

open Idealize.ShloMosaic Idealize.ShloMosaic.TcCoe Idealize.SL.Sem

/-- The three-kernel program runs and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The plain program runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the network of the eight arguments in their result array. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Boundaries.result m ρ c), (h c).2⟩)
      (Cert.KernelIdeal.Folded.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.Gcn.reference_result, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
